-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x8192 : Shape := ⟨2, ![2048, 8192]⟩
abbrev S8192x8192 : Shape := ⟨2, ![8192, 8192]⟩
abbrev S_ : Shape := ⟨0, ![]⟩

class Facts : Prop where
  bcast_S_S2048x8192 : S_.BroadcastsInDim S2048x8192 (![] : Fin 0 → Fin S2048x8192.rank)
  reducesTo_S2048x8192_S_d0_1 : S2048x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S2048x8192 .f32) (main_arg1 : FVec F S8192x8192 .f32) : IVec S_ 1 :=
  let main_v0 : FVec F S2048x8192 .f32 := Host.absf main_arg0
  let main_cst : FVec F S_ .f32 := constant S_ .f32 0x7F800000#32
  let main_v1 : FVec F S2048x8192 .f32 := broadcastInDim S2048x8192 ![] bcast_S_S2048x8192 main_cst
  let main_v2 : IVec S2048x8192 1 := cmpf .olt main_v0 main_v1
  let main_c : IVec S_ 1 := constantI S_ 1 1#1
  let main_v3 : IVec S_ 1 := (fun x v => Host.reduce IntOp.andi x v reducesTo_S2048x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S2048x8192 : Shape := ⟨2, ![2048, 8192]⟩
abbrev S8192x8192 : Shape := ⟨2, ![8192, 8192]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S8192x8192, .f32⟩
  | .hbm, ⟨2, _⟩ => ⟨S2048x8192, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S2048x8192.size a
  hwx0_0 : ∀ i : grid0.Coords, EltTy.bits .f32 = 32 ∨ (Rect.block (s := S2048x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x8192.size a
  hwx0_1 : ∀ i : grid0.Coords, EltTy.bits .f32 = 32 ∨ (Rect.block (s := S8192x8192) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S2048x8192.size a
  hwx0_2 : ∀ i : grid0.Coords, EltTy.bits .f32 = 32 ∨ (Rect.block (s := S2048x8192) S1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2048x8192 : Shape := ⟨2, ![2048, 8192]⟩
abbrev S8192x8192 : Shape := ⟨2, ![8192, 8192]⟩

abbrev nBuf : Space → Nat
  | .hbm => 3
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x8192, .f32⟩
  | .hbm, ⟨2, _⟩ => ⟨S2048x8192, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S2048x8192_S8192x8192_S2048x8192_1_0_0_1_n_n_wf : DotDims.WF S2048x8192 S8192x8192 S2048x8192 [1] [0] [0] [1] [] []

variable [Facts₀]

def dot_S2048x8192_S8192x8192_S2048x8192_1_0_0_1_n_n : DotDims S2048x8192 S8192x8192 S2048x8192 where
  lhsContracting := [1]
  rhsContracting := [0]
  lhsNonContracting := [0]
  rhsNonContracting := [1]
  lhsBatch := []
  rhsBatch := []
  wf := dot_S2048x8192_S8192x8192_S2048x8192_1_0_0_1_n_n_wf

class Facts : Prop extends Facts₀ where

variable [Facts]
-- ==== Proof.Cases.lean ====
/-
  What one step of the body leaves behind, in each of its three cases.

  The body keeps a 1024 × 1024 accumulator block between grid points. At the first contraction step of a run it
  overwrites the accumulator with zero and then adds the block product of its two input blocks; at every later step it
  adds the block product to what the step before left; at the last step it also copies the accumulator, as just
  updated, into the output block. Every store covers the whole block, so what a buffer holds after the body is the
  value of its last store, and a load that follows a store reads that store's value. The statements hold for every
  interpretation of the float operations.
-/
import proofs.«105956_j15762529977052_1_alg».proof.Proof.Gen.KernelIdeal.Frame
import Idealize.ShloMosaic.Lib.Pipeline.Value
import Idealize.ShloMosaic.Lib.Tactic

noncomputable section

namespace Cert.KernelIdeal.Cases

open Cert.KernelIdeal Cert.KernelIdeal.Gen Idealize.ShloMosaic Idealize.ShloMosaic.TcCoe Idealize.SL.Sem

variable {F : FTy → Type} [FloatOps F]

theorem zero_offsets : (![0, 0] : Fin 2 → Nat) = fun _ => 0 := funext fun a => by fin_cases a <;> rfl

/-- First step of a run: the accumulator ends at the step's update of the zero block. -/
theorem acc_first (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i)
    (x0 x1 : Vec F S1024x1024 .f32) :
    sout0_A_0 c i a3 h3 a4 h4 a5 h5 a6 h6 hc0 hc1 x0 x1 = k0_pay2 x0 x1 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) zero_offsets, View.readCov_unit_zero (S := S1024x1024) _ zero_offsets]
  simp only [View.readAt_eq_ld, h3.read_unread, h4.read_unread, View.ld_unit_zero (S := S1024x1024) zero_offsets]

/-- A middle step: the accumulator ends at the step's update of what it held. -/
theorem acc_middle (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : ¬cond0_1 i)
    (x0 x1 xs0 : Vec F S1024x1024 .f32) :
    sout0_B_0 c i a3 h3 a4 h4 a5 h5 a6 h6 hc0 hc1 x0 x1 xs0 = k0_pay2 x0 x1 xs0 := by
  unfold sout0_B_0
  rw [View.read_writes_eq_canon _ _ _ (scover0_B_0 c i a3 h3 a4 h4 a5 h5 a6 h6 hc0 hc1 x0 x1 xs0)]
  unfold kernelRun0_B
  dsimp only
  rw [View.canon_unit_zero zero_offsets]
  simp only [View.readAt_eq_ld, h3.read_unread, h4.read_unread, h6.read_unread, View.ld_unit_zero (S := S1024x1024) zero_offsets]

/-- The last step: the accumulator ends at the step's update of what it held … -/
theorem acc_last (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 xs0 : Vec F S1024x1024 .f32) :
    sout0_C_0 c i a3 h3 a4 h4 a5 h5 a6 h6 hc0 hc1 x0 x1 xs0 = k0_pay2 x0 x1 xs0 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero zero_offsets]
  simp only [View.readAt_eq_ld, h3.read_unread, h4.read_unread, h6.read_unread, View.ld_unit_zero (S := S1024x1024) zero_offsets]

/-- … and the output block receives the same value: it is loaded from the accumulator after the update. -/
theorem out_last (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 xs0 : Vec F S1024x1024 .f32) :
    out0_C_2 c i a3 h3 a4 h4 a5 h5 a6 h6 hc0 hc1 x0 x1 xs0 = k0_pay2 x0 x1 xs0 := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero zero_offsets, View.readCov_unit_zero (S := S1024x1024) _ zero_offsets]
  simp only [View.readAt_eq_ld, h3.read_unread, h4.read_unread, h6.read_unread, View.ld_unit_zero (S := S1024x1024) zero_offsets]

end Cert.KernelIdeal.Cases

end
-- ==== Proof.StepAt.lean ====
/-
  The accumulating step of the kernel body, read at one entry.

  At the exact instance a change of float format is the identity and the matrix unit's product into a zero
  accumulator is the plain sum of products over the contracted axis. So the value the body stores back into its
  accumulator block, at entry (p, q), is what the block held there plus the sum over j < 1024 of x p j * y j q, where x
  and y are the two 1024 × 1024 input blocks; and the block the body stores at the first step of a run is zero
  everywhere.
-/
import proofs.«105956_j15762529977052_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.StepAt

open Cert.KernelIdeal Cert.KernelIdeal.Gen Idealize.ShloMosaic Idealize.ShloMosaic.ValueIdx

/-- The left operand of the block product is read at (row of the output entry, contraction position) … -/
theorem lhs_row (i : S1024x1024.Idx) (k : dot_S1024x1024_S1024x1024_S1024x1024_1_0_0_1_n_n.contr.Idx) :
    (dot_S1024x1024_S1024x1024_S1024x1024_1_0_0_1_n_n.lhsIdx i k 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
theorem lhs_col (i : S1024x1024.Idx) (k : dot_S1024x1024_S1024x1024_S1024x1024_1_0_0_1_n_n.contr.Idx) :
    (dot_S1024x1024_S1024x1024_S1024x1024_1_0_0_1_n_n.lhsIdx i k 1).val = (k ⟨0, by decide⟩).val :=
  dot_S1024x1024_S1024x1024_S1024x1024_1_0_0_1_n_n.lhsIdx_val_of_single rfl i k
/-- … and the right operand at (contraction position, column of the output entry). -/
theorem rhs_row (i : S1024x1024.Idx) (k : dot_S1024x1024_S1024x1024_S1024x1024_1_0_0_1_n_n.contr.Idx) :
    (dot_S1024x1024_S1024x1024_S1024x1024_1_0_0_1_n_n.rhsIdx i k 0).val = (k ⟨0, by decide⟩).val :=
  dot_S1024x1024_S1024x1024_S1024x1024_1_0_0_1_n_n.rhsIdx_val_of_single rfl i k
theorem rhs_col (i : S1024x1024.Idx) (k : dot_S1024x1024_S1024x1024_S1024x1024_1_0_0_1_n_n.contr.Idx) :
    (dot_S1024x1024_S1024x1024_S1024x1024_1_0_0_1_n_n.rhsIdx i k 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The block product into a zero accumulator, at entry (p, q): the sum over the 1024 contraction positions. -/
theorem blockProd_at (x y : FVec Ideal S1024x1024 .bf16) (p q : Fin 1024) :
    FloatOps.matmul dot_S1024x1024_S1024x1024_S1024x1024_1_0_0_1_n_n none x y (constant S1024x1024 .f32 0x00000000#32) (ix2 p q)
      = ∑ j : Fin 1024, x (ix2 p j) * y (ix2 j q) := by
  rw [Ideal.matmul_constant_zero_apply,
    ← Equiv.sum_comp (contrEquiv1 dot_S1024x1024_S1024x1024_S1024x1024_1_0_0_1_n_n 1024 rfl rfl).symm]
  refine Finset.sum_congr rfl fun j _ => ?_
  have hj := contrEquiv1_symm_val dot_S1024x1024_S1024x1024_S1024x1024_1_0_0_1_n_n 1024 rfl rfl j
  have el : dot_S1024x1024_S1024x1024_S1024x1024_1_0_0_1_n_n.lhsIdx (ix2 p q)
      ((contrEquiv1 dot_S1024x1024_S1024x1024_S1024x1024_1_0_0_1_n_n 1024 rfl rfl).symm j) = ix2 p j :=
    funext fun a => Fin.ext (by
      match a with
      | ⟨0, _⟩ => exact lhs_row _ _
      | ⟨1, _⟩ => exact (lhs_col _ _).trans hj)
  have er : dot_S1024x1024_S1024x1024_S1024x1024_1_0_0_1_n_n.rhsIdx (ix2 p q)
      ((contrEquiv1 dot_S1024x1024_S1024x1024_S1024x1024_1_0_0_1_n_n 1024 rfl rfl).symm j) = ix2 j q :=
    funext fun a => Fin.ext (by
      match a with
      | ⟨0, _⟩ => exact (rhs_row _ _).trans hj
      | ⟨1, _⟩ => exact rhs_col _ _)
  rw [el, er]

/-- The accumulating store's value at entry (p, q): the accumulator there plus the block product's entry. -/
theorem step_at (x y acc : Vec Ideal S1024x1024 .f32) (p q : Fin 1024) :
    k0_pay2 (F := Ideal) x y acc (ix2 p q) = acc (ix2 p q) + ∑ j : Fin 1024, x (ix2 p j) * y (ix2 j q) := by
  unfold k0_pay2
  refine (congrFun (shapeCast_self _ _) (ix2 p q)).trans ?_
  refine (addf_apply _ _ (ix2 p q)).trans ?_
  exact congrArg (acc (ix2 p q) + ·) (blockProd_at _ _ p q)

/-- The block stored at the first step of a run is zero at every entry. -/
theorem zero_at (p q : Fin 1024) : k0_pay1 (F := Ideal) (ix2 p q) = 0 := by
  unfold k0_pay1
  refine (congrFun (shapeCast_self _ _) (ix2 p q)).trans ?_
  exact Ideal.ofBits_zero_f32

end Cert.KernelIdeal.StepAt

end
-- ==== Proof.Fold.lean ====
/-
  The accumulator over one run of eight contraction steps.

  Grid points come in runs of eight that share an output block: the run's first point (position ≡ 0 mod 8) resets
  the accumulator, each point adds its block product, and the last (position ≡ 7 mod 8) copies the accumulator into
  the output block. Call the addend of point n, at block entry (p, q), the sum over j < 1024 of
  (left block of n) p j * (right block of n) j q. Then after the last point of the run that starts at b the output
  block holds, entry by entry, 0 plus the sum of the addends of points b, b + 1, …, b + 7.
-/
import proofs.«105956_j15762529977052_1_alg».proof.Proof.Gen.KernelIdeal.Value
import proofs.«105956_j15762529977052_1_alg».proof.Proof.Cases
import proofs.«105956_j15762529977052_1_alg».proof.Proof.StepAt

noncomputable section

open scoped BigOperators

namespace Cert.KernelIdeal.Fold

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The two input blocks of point n. -/
abbrev lhsBlock (c : Dev nD) (n : ℕ) (h : n < cfg0.N) : Vec Ideal S1024x1024 .f32 := iblk m c 0 ⟨n, h⟩
abbrev rhsBlock (c : Dev nD) (n : ℕ) (h : n < cfg0.N) : Vec Ideal S1024x1024 .f32 := iblk m c 1 ⟨n, h⟩

/-- Point n's addend at a block entry: the block product of its two input blocks there (zero past the grid, so that
    it is a function of every natural). -/
def addend (c : Dev nD) (n : ℕ) (i : S1024x1024.Idx) : EReal :=
  if h : n < cfg0.N then
    ∑ j : Fin 1024, lhsBlock m c n h (ix2 (⟨(i 0).val, idx2_lt0 i⟩ : Fin 1024) j) * rhsBlock m c n h (ix2 j (⟨(i 1).val, idx2_lt1 i⟩ : Fin 1024))
  else 0

theorem addend_at (c : Dev nD) (n : ℕ) (h : n < cfg0.N) (p q : Fin 1024) :
    addend m c n (ix2 p q) = ∑ j : Fin 1024, lhsBlock m c n h (ix2 p j) * rhsBlock m c n h (ix2 j q) := dif_pos h

/-- At the first point of a run the accumulator ends, entry by entry, at zero plus the point's addend … -/
theorem first_step (c : Dev nD) (n : ℕ) (h : n < cfg0.N) (acc : Vec Ideal S1024x1024 .f32) (i : S1024x1024.Idx)
    (h0 : n % 8 = 0) : Value.scAt0_0 m c n h acc i = 0 + addend m c n i := by
  have h1 : ¬n % 8 = 7 := by omega
  obtain ⟨p, q, rfl⟩ : ∃ (p q : Fin 1024), i = ix2 p q := ⟨i 0, i 1, eq_ix2 i⟩
  unfold Value.scAt0_0
  rw [dif_pos h0, dif_neg h1]
  refine (congrFun (Cases.acc_first (F := Ideal) c (grid0.coords (⟨n, h⟩ : Fin cfg0.N)) (ms0_0 (⟨n, h⟩ : Fin cfg0.N)) (hs0_0 (⟨n, h⟩ : Fin cfg0.N))
    (ms0_1 (⟨n, h⟩ : Fin cfg0.N)) (hs0_1 (⟨n, h⟩ : Fin cfg0.N)) (ms0_2 (⟨n, h⟩ : Fin cfg0.N)) (hs0_2 (⟨n, h⟩ : Fin cfg0.N)) scM0_0 (Memref.isWhole_whole _)
    ((hcond0_0 (⟨n, h⟩ : Fin cfg0.N)).mpr h0) (fun hh => h1 ((hcond0_1 (⟨n, h⟩ : Fin cfg0.N)).mp hh)) (lhsBlock m c n h) (rhsBlock m c n h)) (ix2 p q)).trans ?_
  refine (StepAt.step_at (lhsBlock m c n h) (rhsBlock m c n h) (k0_pay1 (F := Ideal)) p q).trans ?_
  rw [StepAt.zero_at, addend_at m c n h p q]

/-- … and at every later point of the run at what it held plus the point's addend. -/
theorem later_step (c : Dev nD) (n : ℕ) (h : n < cfg0.N) (acc : Vec Ideal S1024x1024 .f32) (i : S1024x1024.Idx)
    (h0 : ¬n % 8 = 0) : Value.scAt0_0 m c n h acc i = acc i + addend m c n i := by
  obtain ⟨p, q, rfl⟩ : ∃ (p q : Fin 1024), i = ix2 p q := ⟨i 0, i 1, eq_ix2 i⟩
  unfold Value.scAt0_0
  by_cases h1 : n % 8 = 7
  · rw [dif_neg h0, dif_pos h1]
    refine (congrFun (Cases.acc_last (F := Ideal) c (grid0.coords (⟨n, h⟩ : Fin cfg0.N)) (ms0_0 (⟨n, h⟩ : Fin cfg0.N)) (hs0_0 (⟨n, h⟩ : Fin cfg0.N))
      (ms0_1 (⟨n, h⟩ : Fin cfg0.N)) (hs0_1 (⟨n, h⟩ : Fin cfg0.N)) (ms0_2 (⟨n, h⟩ : Fin cfg0.N)) (hs0_2 (⟨n, h⟩ : Fin cfg0.N)) scM0_0 (Memref.isWhole_whole _)
      (fun hh => h0 ((hcond0_0 (⟨n, h⟩ : Fin cfg0.N)).mp hh)) ((hcond0_1 (⟨n, h⟩ : Fin cfg0.N)).mpr h1) (lhsBlock m c n h) (rhsBlock m c n h) acc) (ix2 p q)).trans ?_
    refine (StepAt.step_at (lhsBlock m c n h) (rhsBlock m c n h) acc p q).trans ?_
    rw [addend_at m c n h p q]
  · rw [dif_neg h0, dif_neg h1]
    refine (congrFun (Cases.acc_middle (F := Ideal) c (grid0.coords (⟨n, h⟩ : Fin cfg0.N)) (ms0_0 (⟨n, h⟩ : Fin cfg0.N)) (hs0_0 (⟨n, h⟩ : Fin cfg0.N))
      (ms0_1 (⟨n, h⟩ : Fin cfg0.N)) (hs0_1 (⟨n, h⟩ : Fin cfg0.N)) (ms0_2 (⟨n, h⟩ : Fin cfg0.N)) (hs0_2 (⟨n, h⟩ : Fin cfg0.N)) scM0_0 (Memref.isWhole_whole _)
      (fun hh => h0 ((hcond0_0 (⟨n, h⟩ : Fin cfg0.N)).mp hh)) (fun hh => h1 ((hcond0_1 (⟨n, h⟩ : Fin cfg0.N)).mp hh)) (lhsBlock m c n h) (rhsBlock m c n h) acc) (ix2 p q)).trans ?_
    refine (StepAt.step_at (lhsBlock m c n h) (rhsBlock m c n h) acc p q).trans ?_
    rw [addend_at m c n h p q]

/-- At the last point of a run the output block receives the accumulator as the point leaves it. -/
theorem out_is_acc (c : Dev nD) (t : Fin cfg0.N) (h7 : t.val % 8 = 7) :
    (outsAt0 m c t.val t.isLt).1 = (outsAt0 m c t.val t.isLt).2 := by
  have h0 : ¬t.val % 8 = 0 := by omega
  rw [outsAt0_C m c t h0 h7]
  dsimp only
  exact (Cases.out_last (F := Ideal) c (grid0.coords t) (ms0_0 t) (hs0_0 t) (ms0_1 t) (hs0_1 t) (ms0_2 t) (hs0_2 t) scM0_0 (Memref.isWhole_whole _)
      (fun hh => h0 ((hcond0_0 t).mp hh)) ((hcond0_1 t).mpr h7) (iblk m c 0 t) (iblk m c 1 t)
      (outsAt0 m c (t.val - 1) (Nat.lt_of_le_of_lt (Nat.sub_le _ _) t.isLt)).2).trans
    (Cases.acc_last (F := Ideal) c (grid0.coords t) (ms0_0 t) (hs0_0 t) (ms0_1 t) (hs0_1 t) (ms0_2 t) (hs0_2 t) scM0_0 (Memref.isWhole_whole _)
      (fun hh => h0 ((hcond0_0 t).mp hh)) ((hcond0_1 t).mpr h7) (iblk m c 0 t) (iblk m c 1 t)
      (outsAt0 m c (t.val - 1) (Nat.lt_of_le_of_lt (Nat.sub_le _ _) t.isLt)).2).symm

/-- After the last point of a run the accumulator holds, entry by entry, zero plus the eight addends of the run. -/
theorem acc_after_run (c : Dev nD) (t : Fin cfg0.N) (h7 : t.val % 8 = 7) (i : S1024x1024.Idx) :
    (outsAt0 m c t.val t.isLt).2 i = 0 + ∑ s ∈ Finset.range 8, addend m c (8 * (t.val / 8) + s) i := by
  have hN : cfg0.N = 128 := N_0
  have ht := t.isLt
  have hb : 8 * (t.val / 8) + t.val % 8 < cfg0.N := by omega
  refine (congrFun (Value.soutsAt0_0_eq m c t) i).trans ?_
  refine (Pipeline.accAt_add_apply (N := cfg0.N) (ι := S1024x1024.Idx) (β := EReal)
    (fun n h => Value.scAt0_0 m c n h (VS0_0.read (Elt Ideal) VS0_0.junk)) (Value.scAt0_0 m c) (fun _ => 0) (addend m c)
    (8 * (t.val / 8)) 7
    (fun h i => first_step m c _ h _ i (by omega))
    (fun n h acc i hlo hhi => later_step m c n h acc i (by omega))
    (t.val % 8) (by omega) hb i).trans ?_
  rw [h7]

end Cert.KernelIdeal.Fold

end
-- ==== Proof.Blocks.lean ====
/-
  Where the windows' blocks sit in the arrays.

  The grid is 2 × 8 × 8 with the last axis fastest, so point t has row-block t / 64, column-block (t / 8) % 8 and
  contraction-block t % 8. The left factor's window takes block (row-block, contraction-block) of the 2048 × 8192
  array, the right factor's block (contraction-block, column-block) of the 8192 × 8192 array, and the output's block
  (row-block, column-block); every block is 1024 × 1024. Entry (p, j) of a block is therefore the array's entry at
  (1024 * block row + p, 1024 * block column + j).
-/
import proofs.«105956_j15762529977052_1_alg».proof.Proof.Gen.KernelIdeal.Frame.Runs
import Idealize.ShloMosaic.Lib.ValueIdx
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The three windows' block indices at every grid point, decided over the grid. -/
theorem block_index : ∀ t : Fin cfg0.N,
    win0_0.index t (0 : Fin 2) = t.val / 64 ∧ win0_0.index t (1 : Fin 2) = t.val % 8
    ∧ win0_1.index t (0 : Fin 2) = t.val % 8 ∧ win0_1.index t (1 : Fin 2) = t.val / 8 % 8
    ∧ win0_2.index t (0 : Fin 2) = t.val / 64 ∧ win0_2.index t (1 : Fin 2) = t.val / 8 % 8 :=
  (by decide +kernel : ∀ t : Fin grid0.N, _)

/-- Entry (p, j) of the left factor's block at point t is the array's entry (1024 (t / 64) + p, 1024 (t % 8) + j). -/
theorem lhs_block_at (c : Dev nD) (t : Fin cfg0.N) (p j : Fin 1024) (R : Fin 2048) (K : Fin 8192)
    (hR : R.val = 1024 * (t.val / 64) + p.val) (hK : K.val = 1024 * (t.val % 8) + j.val) :
    (iblk m c 0 t : Vec F S1024x1024 .f32) (ix2 p j) = m ((c : Thread nD τ).loc main_arg0) (ix2 R K) := by
  obtain ⟨e0, e1, -, -, -, -⟩ := block_index t
  unfold iblk
  rw [View.read_apply]
  show V m c main_arg0 _ = m (c.tc.loc main_arg0) _
  unfold V
  refine congrArg _ ?_
  funext a
  apply Fin.ext
  match a with
  | ⟨0, _⟩ => show win0_0.index t (0 : Fin 2) * 1024 + 1 * p.val = R.val; rw [e0, hR]; omega
  | ⟨1, _⟩ => show win0_0.index t (1 : Fin 2) * 1024 + 1 * j.val = K.val; rw [e1, hK]; omega

/-- Entry (j, q) of the right factor's block at point t is the array's entry (1024 (t % 8) + j, 1024 ((t / 8) % 8) + q). -/
theorem rhs_block_at (c : Dev nD) (t : Fin cfg0.N) (j q : Fin 1024) (K C : Fin 8192)
    (hK : K.val = 1024 * (t.val % 8) + j.val) (hC : C.val = 1024 * (t.val / 8 % 8) + q.val) :
    (iblk m c 1 t : Vec F S1024x1024 .f32) (ix2 j q) = m ((c : Thread nD τ).loc main_arg1) (ix2 K C) := by
  obtain ⟨-, -, e0, e1, -, -⟩ := block_index t
  unfold iblk
  rw [View.read_apply]
  show V m c main_arg1 _ = m (c.tc.loc main_arg1) _
  unfold V
  refine congrArg _ ?_
  funext a
  apply Fin.ext
  match a with
  | ⟨0, _⟩ => show win0_1.index t (0 : Fin 2) * 1024 + 1 * j.val = K.val; rw [e0, hK]; omega
  | ⟨1, _⟩ => show win0_1.index t (1 : Fin 2) * 1024 + 1 * q.val = C.val; rw [e1, hC]; omega

end Cert.KernelIdeal.Blocks

end
-- ==== Proof.MatSpec.lean ====
/-
  A matrix product's entry, cut into blocks along the contracted axis.

  For A of 2048 × 8192 and B of 8192 × 8192 extended reals, entry (r, c) of the product is the sum over k < 8192 of
  A r k * B k c. Addition of extended reals is commutative and associative, so the sum may be taken block by block:
  eight consecutive stretches of 1024 contraction positions, the sum over s < 8 and j < 1024 of
  A r (1024 s + j) * B (1024 s + j) c. No finiteness is needed: only the commutative-monoid laws of + are used, and
  they hold at the infinities too.
-/
import Idealize.ShloMosaic.Lib.ValueIdx
import Mathlib.Algebra.BigOperators.Fin
import Mathlib.Algebra.BigOperators.Intervals

noncomputable section

open scoped BigOperators

namespace Cert.MatMul

open Finset Idealize.ShloMosaic Idealize.ShloMosaic.ValueIdx

/-- A sum over the first n * b naturals is the sum, over n consecutive blocks of length b, of each block's sum. -/
theorem sum_range_blocks {M : Type*} [AddCommMonoid M] (b : ℕ) (f : ℕ → M) :
    ∀ n : ℕ, ∑ k ∈ range (n * b), f k = ∑ s ∈ range n, ∑ j ∈ range b, f (b * s + j)
  | 0 => by simp
  | n + 1 => by
    rw [Nat.succ_mul, sum_range_add, sum_range_blocks b f n, sum_range_succ, Nat.mul_comm n b]

/-- The left factor's array type (also the product's), and the right factor's. -/
abbrev Lhs : Type := (⟨2, ![2048, 8192]⟩ : Shape).Idx → EReal
abbrev Rhs : Type := (⟨2, ![8192, 8192]⟩ : Shape).Idx → EReal

/-- The summand of entry (r, c) at contraction position k: A r k * B k c (zero past the contracted extent, so that
    it is a function of every natural and sums over ranges need no bound). -/
def term (A : Lhs) (B : Rhs) (r : Fin 2048) (c : Fin 8192) (k : ℕ) : EReal :=
  if h : k < 8192 then A (ix2 r ⟨k, h⟩) * B (ix2 ⟨k, h⟩ c) else 0

theorem term_of_lt (A : Lhs) (B : Rhs) (r : Fin 2048) (c : Fin 8192) (k : ℕ) (h : k < 8192) :
    term A B r c k = A (ix2 r ⟨k, h⟩) * B (ix2 ⟨k, h⟩ c) := dif_pos h

/-- Entry (r, c) of the product A · B. -/
def entry (A : Lhs) (B : Rhs) (r : Fin 2048) (c : Fin 8192) : EReal :=
  ∑ k : Fin 8192, A (ix2 r k) * B (ix2 k c)

/-- The product as an array: entry (i₀, i₁) at index i. -/
def prod (A : Lhs) (B : Rhs) : Lhs :=
  fun i => entry A B ⟨(i 0).val, idx2_lt0 i⟩ ⟨(i 1).val, idx2_lt1 i⟩

theorem prod_ix2 (A : Lhs) (B : Rhs) (r : Fin 2048) (c : Fin 8192) : prod A B (ix2 r c) = entry A B r c := rfl

/-- An entry of the product is the sum of its eight block contributions, each a sum over 1024 contraction positions. -/
theorem entry_blocks (A : Lhs) (B : Rhs) (r : Fin 2048) (c : Fin 8192) :
    entry A B r c = ∑ s ∈ range 8, ∑ j : Fin 1024, term A B r c (1024 * s + j.val) := by
  unfold entry
  refine (Finset.sum_congr rfl fun k _ => ?_ : _ = ∑ k : Fin 8192, term A B r c k.val).trans ?_
  · exact (term_of_lt A B r c k.val k.isLt).symm
  refine ((Fin.sum_univ_eq_sum_range (fun k => term A B r c k) 8192).trans
    (sum_range_blocks 1024 (fun k => term A B r c k) 8)).trans ?_
  refine Finset.sum_congr rfl fun s _ => ?_
  exact (Fin.sum_univ_eq_sum_range (fun j => term A B r c (1024 * s + j)) 1024).symm

end Cert.MatMul

end
-- ==== Proof.Product.lean ====
/-
  The kernel's result array is the matrix product of its two arguments.

  Take the last point t of a run (t ≡ 7 mod 8). Its output block is block (t / 64, (t / 8) % 8) of the result, and
  entry (p, q) of that block is the result's entry (R, C) with R = 1024 (t / 64) + p and C = 1024 ((t / 8) % 8) + q.
  The run's eight points b + s (s < 8) all have row block t / 64 and column block (t / 8) % 8, and point b + s has
  contraction block s, so its addend at (p, q) is the sum over j < 1024 of A R (1024 s + j) * B (1024 s + j) C: the
  s-th block of the product's entry (R, C). Summing the eight blocks gives the entry itself, by the commutative-monoid
  laws of addition on the extended reals alone. The 2 × 8 output blocks written at the sixteen last points tile the
  2048 × 8192 result, so the whole array is the product.
-/
import proofs.«105956_j15762529977052_1_alg».proof.Proof.Fold
import proofs.«105956_j15762529977052_1_alg».proof.Proof.Blocks
import proofs.«105956_j15762529977052_1_alg».proof.Proof.MatSpec

noncomputable section

open scoped BigOperators

namespace Cert.KernelIdeal.Product

open Cert.KernelIdeal Cert.KernelIdeal.Gen Idealize.ShloMosaic Idealize.ShloMosaic.TcCoe Idealize.SL.Sem
open Idealize.ShloMosaic.ValueIdx
open Idealize.ShloMosaic.Pipeline (Dat)
open Cert.MatMul (term entry prod)

variable (m : (ℓ : Loc nD τ sig) → Buf (Elt Ideal) ℓ) (ρ : Dev nD → PrngReg)

/-- The two argument arrays as launched, and their product as contents of the result array. -/
abbrev argA (c : Dev nD) : Cert.MatMul.Lhs := m ((c : Thread nD τ).loc main_arg0)
abbrev argB (c : Dev nD) : Cert.MatMul.Rhs := m ((c : Thread nD τ).loc main_arg1)
abbrev result (c : Dev nD) : Buf (Elt Ideal) ((c : Thread nD τ).loc main_v0) := prod (argA m c) (argB m c)

/-- The addend of the s-th point of t's run, at block entry (p, q), is the s-th block of the product's entry (R, C). -/
theorem addend_is_block (c : Dev nD) (t : Fin cfg0.N) (s : ℕ) (hs : s < 8) (p q : Fin 1024) (R : Fin 2048) (C : Fin 8192)
    (hR : R.val = 1024 * (t.val / 64) + p.val) (hC : C.val = 1024 * (t.val / 8 % 8) + q.val) :
    Fold.addend m c (8 * (t.val / 8) + s) (ix2 p q) = ∑ j : Fin 1024, term (argA m c) (argB m c) R C (1024 * s + j.val) := by
  have hN : cfg0.N = 128 := N_0
  have ht := t.isLt
  have hn : 8 * (t.val / 8) + s < cfg0.N := by omega
  rw [Fold.addend_at m c _ hn p q]
  refine Finset.sum_congr rfl fun j _ => ?_
  have hj := j.isLt
  have hK : 1024 * s + j.val < 8192 := by omega
  rw [Cert.MatMul.term_of_lt _ _ _ _ _ hK]
  exact congrArg₂ (· * ·)
    (Blocks.lhs_block_at m c ⟨8 * (t.val / 8) + s, hn⟩ p j R ⟨1024 * s + j.val, hK⟩
      (by show R.val = 1024 * ((8 * (t.val / 8) + s) / 64) + p.val; omega)
      (by show 1024 * s + j.val = 1024 * ((8 * (t.val / 8) + s) % 8) + j.val; omega))
    (Blocks.rhs_block_at m c ⟨8 * (t.val / 8) + s, hn⟩ j q ⟨1024 * s + j.val, hK⟩ C
      (by show 1024 * s + j.val = 1024 * ((8 * (t.val / 8) + s) % 8) + j.val; omega)
      (by show C.val = 1024 * ((8 * (t.val / 8) + s) / 8 % 8) + q.val; omega))

/-- After the last point of a run, entry (p, q) of the output block is the product's entry (R, C). -/
theorem block_entry (c : Dev nD) (t : Fin cfg0.N) (h7 : t.val % 8 = 7) (p q : Fin 1024) (R : Fin 2048) (C : Fin 8192)
    (hR : R.val = 1024 * (t.val / 64) + p.val) (hC : C.val = 1024 * (t.val / 8 % 8) + q.val) :
    (outsAt0 m c t.val t.isLt).1 (ix2 p q) = prod (argA m c) (argB m c) (ix2 R C) := by
  rw [Fold.out_is_acc m c t h7, Fold.acc_after_run m c t h7 (ix2 p q), Cert.MatMul.prod_ix2, Cert.MatMul.entry_blocks, zero_add]
  refine Finset.sum_congr rfl fun s hs => ?_
  exact addend_is_block m c t s (Finset.mem_range.mp hs) p q R C hR hC

/-- What a last point writes back is its block of the product. -/
theorem flushed_eq (c : Dev nD) (t : Fin cfg0.N) (hf : (cfg0.win 2).flush t = true) :
    (dats m 0 c).flushed 2 t = ((cfg0.win 2).blk t).view.read (Elt Ideal) (result m c) := by
  have h7 : t.val % 8 = 7 := (flush0_2 t).mp hf
  have hN : cfg0.N = 128 := N_0
  have ht := t.isLt
  obtain ⟨-, -, -, -, e0, e1⟩ := Blocks.block_index t
  rw [Value.flushed2]
  funext y
  have hy0 : (y 0).val < 1024 := (y 0).isLt
  have hy1 : (y 1).val < 1024 := (y 1).isLt
  have hR : 1024 * (t.val / 64) + (y 0).val < 2048 := by omega
  have hC : 1024 * (t.val / 8 % 8) + (y 1).val < 8192 := by omega
  rw [View.read_apply]
  have ein : (cfg0.win 2).xinj (grid0.coords t) y = ix2 (⟨(y 0).val, hy0⟩ : Fin 1024) (⟨(y 1).val, hy1⟩ : Fin 1024) :=
    funext fun a => Fin.ext (by match a with | ⟨0, _⟩ => rfl | ⟨1, _⟩ => rfl)
  have eout : ((cfg0.win 2).blk t).view.emb y
      = ix2 (⟨1024 * (t.val / 64) + (y 0).val, hR⟩ : Fin 2048) (⟨1024 * (t.val / 8 % 8) + (y 1).val, hC⟩ : Fin 8192) :=
    funext fun a => Fin.ext (by
      match a with
      | ⟨0, _⟩ => show win0_2.index t (0 : Fin 2) * 1024 + 1 * (y 0).val = 1024 * (t.val / 64) + (y 0).val; rw [e0]; omega
      | ⟨1, _⟩ => show win0_2.index t (1 : Fin 2) * 1024 + 1 * (y 1).val = 1024 * (t.val / 8 % 8) + (y 1).val; rw [e1]; omega)
  show (outsAt0 m c t.val t.isLt).1 ((cfg0.win 2).xinj (grid0.coords t) y) = result m c (((cfg0.win 2).blk t).view.emb y)
  rw [ein, eout]
  exact block_entry m c t h7 _ _ _ _ rfl rfl

/-- An index of the result lies in a point's output block iff each coordinate lies in the block's range. -/
theorem mem_out_block (t : Fin cfg0.N) (i : S2048x8192.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- Every index of the result lies in the output block of some last point: the one with its row block and column block. -/
theorem cover (i : S2048x8192.Idx) :
    ∃ t : Fin cfg0.N, (cfg0.win 2).flush t = true ∧ i ∈ ((cfg0.win 2).blk t).view.set := by
  have h0 : (i 0).val < 2048 := (i 0).isLt
  have h1 : (i 1).val < 8192 := (i 1).isLt
  have hN : cfg0.N = 128 := N_0
  obtain ⟨t, ht⟩ : ∃ t : Fin cfg0.N, t.val = 64 * ((i 0).val / 1024) + 8 * ((i 1).val / 1024) + 7 := ⟨⟨_, by omega⟩, rfl⟩
  obtain ⟨-, -, -, -, e0, e1⟩ := Blocks.block_index t
  refine ⟨t, (flush0_2 t).mpr (by omega), ?_⟩
  rw [mem_out_block]
  intro a
  match a with
  | ⟨0, _⟩ =>
    show win0_2.index t (0 : Fin 2) * 1024 ≤ (i 0).val ∧ (i 0).val < win0_2.index t (0 : Fin 2) * 1024 + 1024
    rw [e0]; omega
  | ⟨1, _⟩ =>
    show win0_2.index t (1 : Fin 2) * 1024 ≤ (i 1).val ∧ (i 1).val < win0_2.index t (1 : Fin 2) * 1024 + 1024
    rw [e1]; omega

/-- So the result array ends holding the product. -/
theorem final (c : Dev nD) : (dats m 0 c).arrAt 2 cfg0.N = result m c :=
  (dats m 0 c).arrAt_eq_of_cover 2 (result m c) (fun t hf => flushed_eq m c t hf) cover

/-- The kernel's run, read: the result array at the product of the argument arrays, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Product

end
-- ==== Proof.RefProduct.lean ====
/-
  The reference computes the matrix product.

  The reference is one contraction of the second axis of its first argument with the first axis of its second. At the
  exact instance its entry at (r, c) is the sum over k < 8192 of the first argument at (r, k) times the second at
  (k, c): the product's entry, with the same summands in the same index set.
-/
import proofs.«105956_j15762529977052_1_alg».proof.Proof.Gen.ReferenceIdeal.Read
import proofs.«105956_j15762529977052_1_alg».proof.Proof.MatSpec

noncomputable section

open scoped BigOperators

namespace Cert.ReferenceIdeal.RefProduct

open Cert.ReferenceIdeal Cert.ReferenceIdeal.Gen Idealize.ShloMosaic Idealize.ShloMosaic.ValueIdx

theorem ref_is_prod (x0 : (⟨S2048x8192, .f32⟩ : BufTy).Contents (Elt Ideal)) (x1 : (⟨S8192x8192, .f32⟩ : BufTy).Contents (Elt Ideal)) :
    Read.val_main_v0 (F := Ideal) x0 x1 = Cert.MatMul.prod x0 x1 := by
  funext i
  have el : ∀ k : Fin 8192, Read.lidx_main_v0 i k = ix2 (⟨(i 0).val, idx2_lt0 i⟩ : Fin 2048) k := fun k =>
    funext fun a => Fin.ext (by match a with | ⟨0, _⟩ => rfl | ⟨1, _⟩ => rfl)
  have er : ∀ k : Fin 8192, Read.ridx_main_v0 i k = ix2 k (⟨(i 1).val, idx2_lt1 i⟩ : Fin 8192) := fun k =>
    funext fun a => Fin.ext (by match a with | ⟨0, _⟩ => rfl | ⟨1, _⟩ => rfl)
  rw [Read.val_main_v0_apply]
  show _ = ∑ k : Fin 8192, x0 (ix2 (⟨(i 0).val, idx2_lt0 i⟩ : Fin 2048) k) * x1 (ix2 k (⟨(i 1).val, idx2_lt1 i⟩ : Fin 8192))
  exact Finset.sum_congr rfl fun k _ => by rw [el k, er k]

end Cert.ReferenceIdeal.RefProduct

end
-- ==== Proof.lean ====
/-
  A K-blocked matrix product against one whole matrix product.

  The kernel multiplies a 2048 × 8192 matrix by an 8192 × 8192 matrix on a 2 × 8 × 8 grid of 1024 × 1024 blocks: for
  each output block it runs through the eight blocks of the contracted axis, resetting an accumulator at the first,
  adding the block product at each, and copying the accumulator to the output at the last. The reference is a single
  contraction of the same two arrays. Over the extended reals a change of float format is the identity and the
  matrix unit's product is the exact sum of products, so both sides compute, at entry (r, c), a sum of the same 8192
  products A r k * B k c: the reference in one sum, the kernel as zero plus eight sums of 1024 consecutive terms.
  These are equal by commutativity and associativity of addition alone, which hold on all of the extended reals;
  the finiteness of the inputs is not used. The idealization rewrote nothing, so its conjunct is trivial; the two
  kernel frames are the generated ones, and the reference's frame is its run with the result dropped.
-/
import proofs.«105956_j15762529977052_1_alg».proof.Defs
import proofs.«105956_j15762529977052_1_alg».proof.Proof.Gen.Kernel
import proofs.«105956_j15762529977052_1_alg».proof.Proof.Gen.Kernel.Frame
import proofs.«105956_j15762529977052_1_alg».proof.Proof.Gen.KernelIdeal
import proofs.«105956_j15762529977052_1_alg».proof.Proof.Gen.KernelIdeal.Frame
import proofs.«105956_j15762529977052_1_alg».proof.Proof.Gen.KernelIdeal.Value
import proofs.«105956_j15762529977052_1_alg».proof.Proof.Gen.ReferenceIdeal
import proofs.«105956_j15762529977052_1_alg».proof.Proof.Gen.ReferenceIdeal.Run
import proofs.«105956_j15762529977052_1_alg».proof.Proof.Gen.ReferenceIdeal.Read
import proofs.«105956_j15762529977052_1_alg».proof.Proof.Gen.Pre_finite_inputs
import proofs.«105956_j15762529977052_1_alg».proof.Proof.Product
import proofs.«105956_j15762529977052_1_alg».proof.Proof.RefProduct
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the product of the argument arrays in the result array: the kernel by its blockwise
    accumulation, the reference by its one contraction, of arguments that agree. -/
theorem algebraic : Cert.algebraic_KernelIdeal_ReferenceIdeal := by
  intro m ρ m' ρ' _ hagree
  refine ⟨fun c => Cert.KernelIdeal.Product.result m c, Cert.KernelIdeal.Product.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefProduct.ref_is_prod, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
